-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x20000x64 : Shape := ⟨3, ![16, 20000, 64]⟩
abbrev S16x20000x2 : Shape := ⟨3, ![16, 20000, 2]⟩
abbrev S_ : Shape := ⟨0, ![]⟩

class Facts : Prop where
  bcast_S_S16x20000x64 : S_.BroadcastsInDim S16x20000x64 (![] : Fin 0 → Fin S16x20000x64.rank)
  reducesTo_S16x20000x64_S_d0_1_2 : S16x20000x64.ReducesTo [0, 1, 2] S_
  h_S_ : 0 < S_.numel

variable [Facts]

def fn {F : FTy → Type} [FloatOps F] (main_arg0 : FVec F S16x20000x64 .f32) (main_arg1 : IVec S16x20000x2 32) : IVec S_ 1 :=
  let main_v0 : FVec F S16x20000x64 .f32 := Host.absf main_arg0
  let main_cst : FVec F S_ .f32 := constant S_ .f32 0x7F800000#32
  let main_v1 : FVec F S16x20000x64 .f32 := broadcastInDim S16x20000x64 ![] bcast_S_S16x20000x64 main_cst
  let main_v2 : IVec S16x20000x64 1 := cmpf .olt main_v0 main_v1
  let main_c : IVec S_ 1 := constantI S_ 1 1#1
  let main_v3 : IVec S_ 1 := (fun x v => Host.reduce IntOp.andi x v reducesTo_S16x20000x64_S_d0_1_2 h_S_) main_v2 main_c
  main_v3
-- ==== Kernel.lean ====
abbrev S16x20000x64 : Shape := ⟨3, ![16, 20000, 64]⟩
abbrev S16x20000x2 : Shape := ⟨3, ![16, 20000, 2]⟩
abbrev S16x10000x128 : Shape := ⟨3, ![16, 10000, 128]⟩
abbrev S1x10000x128 : Shape := ⟨3, ![1, 10000, 128]⟩
abbrev S1x128 : Shape := ⟨2, ![1, 128]⟩
abbrev S1x1x128 : Shape := ⟨3, ![1, 1, 128]⟩

abbrev nBuf : Space → Nat
  | .hbm => 5
  | .vmem => 4
  | .smem => 0
  | _ => 0

abbrev bufTy : (tb : Table) → Fin (tcTables nBuf tb) → BufTy
  | .hbm, ⟨0, _⟩ => ⟨S16x20000x64, .f32⟩
  | .hbm, ⟨1, _⟩ => ⟨S16x20000x2, .i32⟩
  | .hbm, ⟨2, _⟩ => ⟨S16x10000x128, .f32⟩
  | .hbm, ⟨3, _⟩ => ⟨S16x10000x128, .f32⟩
  | .hbm, ⟨4, _⟩ => ⟨S16x20000x64, .f32⟩
  | .local _ .vmem, ⟨0, _⟩ => ⟨S1x10000x128, .f32⟩
  | .local _ .vmem, ⟨1, _⟩ => ⟨S1x10000x128, .f32⟩
  | .local _ .vmem, ⟨2, _⟩ => ⟨S1x10000x128, .f32⟩
  | .local _ .vmem, ⟨3, _⟩ => ⟨S1x10000x128, .f32⟩
  | _, _ => ⟨S16x20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x20000x64_S16x10000x128 : S16x20000x64.ShapeCasts S16x10000x128
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S1x10000x128 : S1x10000x128.ShapeCasts S1x10000x128
  reduces_S1x10000x128_S1x128 : S1x10000x128.Reduces [1] S1x128
  shapeCasts_S1x128_S1x1x128 : S1x128.ShapeCasts S1x1x128
  rotates_S1x1x128_d2 : S1x1x128.Rotates 2 none
  shapeCasts_S1x1x128_S1x1x128 : S1x1x128.ShapeCasts S1x1x128
  broadcasts_S1x1x128_S1x10000x128 : S1x1x128.Broadcasts S1x10000x128
  shapeCasts_S16x10000x128_S16x20000x64 : S16x10000x128.ShapeCasts S16x20000x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x128.size a ≤ S16x10000x128.size a
  hwx0_0 : ∀ i : grid0.Coords, EltTy.bits .f32 = 32 ∨ (Rect.block (s := S16x10000x128) S1x10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x10000x128.size a ≤ S16x10000x128.size a
  hwx0_1 : ∀ i : grid0.Coords, EltTy.bits .f32 = 32 ∨ (Rect.block (s := S16x10000x128) S1x10000x128.size (cc0_transform_1 i) (hinb0_1 i)).WholeWords (EltTy.packing .f32)

variable [Facts₀]

abbrev win0_0 : Pipeline.Window sig grid0 :=
  Pipeline.Window.ofSpec (Memref.whole main_v0) S1x10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x10000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x20000x64 : Shape := ⟨3, ![16, 20000, 64]⟩
abbrev S16x20000x2 : Shape := ⟨3, ![16, 20000, 2]⟩
abbrev S_ : Shape := ⟨0, ![]⟩
abbrev S16x64 : Shape := ⟨2, ![16, 64]⟩
abbrev S16x1x64 : Shape := ⟨3, ![16, 1, 64]⟩

abbrev nBuf : Space → Nat
  | .hbm => 6
  | .vmem => 0
  | .smem => 0
  | _ => 0

abbrev bufTy : (tb : Table) → Fin (tcTables nBuf tb) → BufTy
  | .hbm, ⟨0, _⟩ => ⟨S16x20000x64, .f32⟩
  | .hbm, ⟨1, _⟩ => ⟨S16x20000x2, .i32⟩
  | .hbm, ⟨2, _⟩ => ⟨S_, .f32⟩
  | .hbm, ⟨3, _⟩ => ⟨S16x64, .f32⟩
  | .hbm, ⟨4, _⟩ => ⟨S16x1x64, .f32⟩
  | .hbm, ⟨5, _⟩ => ⟨S16x20000x64, .f32⟩
  | _, _ => ⟨S16x20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  reducesTo_S16x20000x64_S16x64_d1 : S16x20000x64.ReducesTo [1] S16x64
  h_S_ : 0 < S_.numel
  bcast_S16x64_S16x1x64_0_2 : S16x64.BroadcastsInDim S16x1x64 (![0, 2] : Fin 2 → Fin S16x1x64.rank)
  bcast_S16x1x64_S16x20000x64_0_1_2 : S16x1x64.BroadcastsInDim S16x20000x64 (![0, 1, 2] : Fin 3 → Fin S16x20000x64.rank)

variable [Facts₀]

class Facts : Prop extends Facts₀ where

variable [Facts]
-- ==== Proof.ColumnTotal.lean ====
/-
  Column totals of a [16, 20000, 64] array, and their computation through the row-pair packing.

  The packing views the array as [16, 10000, 128]: consecutive rows 2q and 2q+1 lie side by side along the last axis,
  so lane l of packed row q is entry (2q + l / 64, l % 64) of the original (both views have the same row-major order).
  Summing the packed rows lane by lane gives, in lane l, the sum over the rows of parity l / 64 of column l % 64;
  adding to it the lane 64 places away (the other parity, the same column) gives the column's total over all 20000
  rows, in every lane. Viewing the result, constant along the packed rows, as [16, 20000, 64] again puts the total of
  column d at every (row, d). No step uses more than commutativity and associativity of addition, so all of it is stated
  over an arbitrary commutative monoid (the extended reals with their addition are one).
-/
import Idealize.ShloMosaic.PureOps.Ideal
import Idealize.ShloMosaic.Lib.ValueIdx
import Idealize.ShloMosaic.Lib.Pipeline.Value

noncomputable section

namespace Cert.ColumnTotal

open Idealize.ShloMosaic Idealize.ShloMosaic.ValueIdx
open scoped BigOperators

/-- The array's shape, and its row-pair packing. -/
abbrev Rows : Shape := ⟨3, ![16, 20000, 64]⟩
abbrev Pairs : Shape := ⟨3, ![16, 10000, 128]⟩

/-- A sum of 2n terms taken pair by pair: the terms at even places, plus the terms at odd places. -/
theorem sum_even_add_sum_odd {M : Type*} [AddCommMonoid M] (n : ℕ) (f : Fin (n * 2) → M) :
    (∑ r : Fin n, f (finProdFinEquiv (r, (0 : Fin 2)))) + (∑ r : Fin n, f (finProdFinEquiv (r, (1 : Fin 2))))
      = ∑ k : Fin (n * 2), f k := by
  rw [← Finset.sum_add_distrib, ← Equiv.sum_comp finProdFinEquiv f, Fintype.sum_prod_type]
  exact Finset.sum_congr rfl fun r _ => (Fin.sum_univ_two (fun y : Fin 2 => f (finProdFinEquiv (r, y)))).symm

variable {M : Type} [AddCommMonoid M]

/-- The total of column `d` of batch `b`: the sum of its 20000 entries. -/
def total (x : Rows.Idx → M) (b : Fin 16) (d : Fin 64) : M := ∑ k : Fin 20000, x (ix3 b k d)

/-- The part of that total over the rows of parity `p` (rows p, p + 2, p + 4, …). -/
def half (x : Rows.Idx → M) (b : Fin 16) (p : Fin 2) (d : Fin 64) : M :=
  ∑ r : Fin 10000, x (ix3 b ⟨p.val + 2 * r.val, by have := r.isLt; have := p.isLt; omega⟩ d)

/-- The even rows' part plus the odd rows' part is the total. -/
theorem half_add_half (x : Rows.Idx → M) (b : Fin 16) (d : Fin 64) : half x b 0 d + half x b 1 d = total x b d :=
  sum_even_add_sum_odd 10000 (fun k : Fin (10000 * 2) => x (ix3 b ⟨k.val, k.isLt⟩ d))

/-- The two parities in either order, the column named twice. -/
theorem half_add_half_of (x : Rows.Idx → M) (b : Fin 16) (p p' : Fin 2) (d d' : Fin 64) (hp : p.val + p'.val = 1)
    (hd : d'.val = d.val) : half x b p d + half x b p' d' = total x b d := by
  obtain rfl : d' = d := Fin.ext hd
  have hp0 : p.val = 0 ∨ p.val = 1 := by have := p.isLt; omega
  rcases hp0 with h0 | h1
  · obtain rfl : p = 0 := Fin.ext h0
    obtain rfl : p' = 1 := Fin.ext (by show p'.val = 1; have : (0 : Fin 2).val = 0 := rfl; omega)
    exact half_add_half x b d'
  · obtain rfl : p = 1 := Fin.ext h1
    obtain rfl : p' = 0 := Fin.ext (by show p'.val = 0; have : (1 : Fin 2).val = 1 := rfl; omega)
    rw [add_comm]; exact half_add_half x b d'

/-! ## The packing, read at an index -/

/-- The packed view at (b, q, l) is the array at row 2q + l / 64, column l % 64. -/
theorem pack_apply {α : Type} (x : Rows.Idx → α) (h : Rows.ShapeCasts Pairs) (b : Fin 16) (q : Fin 10000) (l : Fin 128) :
    shapeCast Pairs x h (ix3 b q l)
      = x (ix3 b ⟨l.val / 64 + 2 * q.val, by have := q.isLt; have := l.isLt; omega⟩ ⟨l.val % 64, Nat.mod_lt _ (by decide)⟩) := by
  refine shapeCast_apply x h _ _ ?_
  rw [Shape.rowMajor_val_three, Shape.rowMajor_val_three]
  show (b.val * 20000 + (l.val / 64 + 2 * q.val)) * 64 + l.val % 64 = (b.val * 10000 + q.val) * 128 + l.val
  omega

/-- The unpacked view at (b, n, d) is the packed array at row n / 2, lane (n % 2) · 64 + d. -/
theorem unpack_apply {α : Type} (y : Pairs.Idx → α) (h : Pairs.ShapeCasts Rows) (b : Fin 16) (n : Fin 20000) (d : Fin 64) :
    shapeCast Rows y h (ix3 b n d)
      = y (ix3 b ⟨n.val / 2, by have := n.isLt; omega⟩ ⟨n.val % 2 * 64 + d.val, by have := d.isLt; omega⟩) := by
  refine shapeCast_apply y h _ _ ?_
  rw [Shape.rowMajor_val_three, Shape.rowMajor_val_three]
  show (b.val * 10000 + n.val / 2) * 128 + (n.val % 2 * 64 + d.val) = (b.val * 20000 + n.val) * 64 + d.val
  omega

/-! ## Lane sums of the packed rows, folded with the lane 64 places away -/

/-- Lane `l` of batch `b`: the sum of that lane over the 10000 packed rows, plus the same sum for the lane half a row
    further round. -/
def lanePair (P : Pairs.Idx → M) (b : Fin 16) (l : Fin 128) : M :=
  (∑ q : Fin 10000, P (ix3 b q l)) + ∑ q : Fin 10000, P (ix3 b q ⟨(l.val + 64) % 128, Nat.mod_lt _ (by decide)⟩)

/-- The packed array every row of which holds those folded lane sums. -/
def folded (P : Pairs.Idx → M) : Pairs.Idx → M :=
  fun j => lanePair P ⟨(j 0).val, (j 0).isLt⟩ ⟨(j 2).val, (j 2).isLt⟩

theorem folded_apply (P : Pairs.Idx → M) (j : Pairs.Idx) (b : Fin 16) (l : Fin 128) (hb : (j 0).val = b.val)
    (hl : (j 2).val = l.val) : folded P j = lanePair P b l := by
  show lanePair P _ _ = _
  congr 1
  · exact Fin.ext hb
  · exact Fin.ext hl

/-- The lane sum of the packed view is the part of the column's total over one parity of rows. -/
theorem sum_pack (x : Rows.Idx → M) (h : Rows.ShapeCasts Pairs) (b : Fin 16) (l : Fin 128) :
    (∑ q : Fin 10000, shapeCast Pairs x h (ix3 b q l))
      = half x b ⟨l.val / 64, by have := l.isLt; omega⟩ ⟨l.val % 64, Nat.mod_lt _ (by decide)⟩ :=
  Finset.sum_congr rfl fun q _ => pack_apply x h b q l

/-- Folded, the two parities meet: every lane holds its column's total. -/
theorem lanePair_pack (x : Rows.Idx → M) (h : Rows.ShapeCasts Pairs) (b : Fin 16) (l : Fin 128) :
    lanePair (shapeCast Pairs x h) b l = total x b ⟨l.val % 64, Nat.mod_lt _ (by decide)⟩ := by
  unfold lanePair
  rw [sum_pack, sum_pack]
  have := l.isLt
  exact half_add_half_of x b _ _ _ _ (by show l.val / 64 + (l.val + 64) % 128 / 64 = 1; omega)
    (by show (l.val + 64) % 128 % 64 = l.val % 64; omega)

/-! ## The whole computation -/

/-- The result: the column's total at every row. -/
def totals (x : Rows.Idx → M) : Rows.Idx → M :=
  fun i => total x ⟨(i 0).val, (i 0).isLt⟩ ⟨(i 2).val, (i 2).isLt⟩

/-- Packing, folding the lane sums, and unpacking computes the column totals. -/
theorem unpack_folded_pack (x : Rows.Idx → M) (h : Rows.ShapeCasts Pairs) (h' : Pairs.ShapeCasts Rows) :
    shapeCast Rows (folded (shapeCast Pairs x h)) h' = totals x := by
  funext i
  obtain ⟨b, n, d, rfl⟩ : ∃ (b : Fin 16) (n : Fin 20000) (d : Fin 64), i = ix3 b n d := ⟨i 0, i 1, i 2, eq_ix3 i⟩
  rw [unpack_apply, folded_apply _ _ b ⟨n.val % 2 * 64 + d.val, by have := d.isLt; omega⟩ rfl rfl, lanePair_pack]
  have := d.isLt
  exact congrArg (total x b) (Fin.ext (by show (n.val % 2 * 64 + d.val) % 64 = d.val; omega))

end Cert.ColumnTotal

end
-- ==== Proof.RefTotal.lean ====
/-
  The reference computes the column totals.

  Its four operations are: the constant 0; the sum over the 20000 rows from that initial value, one per (batch, column);
  and two broadcasts that put each sum back at every row. Read at an index (b, n, d), operation by operation, the result is
  0 + the sum over k of the array at (b, k, d): the total of column d of batch b.
-/
import proofs.«132183_j40922448396317_2_alg».proof.Proof.Gen.ReferenceIdeal.Read
import proofs.«132183_j40922448396317_2_alg».proof.Proof.ColumnTotal

noncomputable section

namespace Cert.ReferenceIdeal.RefValue

open Cert.ReferenceIdeal Cert.ReferenceIdeal.Read Idealize.ShloMosaic Idealize.ShloMosaic.ValueIdx Cert.ColumnTotal
open scoped BigOperators

theorem reference_eq (x : (⟨S16x20000x64, .f32⟩ : BufTy).Contents (Elt Ideal)) :
    val_main_v2 (F := Ideal) x = totals (M := EReal) x := by
  funext i
  rw [val_main_v2_apply, val_main_v1_apply, val_main_v0_apply, val_main_cst_apply]
  simp only [Ideal.ofBits_def, Ideal.ofBits_zero_f32, zero_add]
  show _ = ∑ k : Fin 20000, x (ix3 ⟨(i 0).val, (i 0).isLt⟩ k ⟨(i 2).val, (i 2).isLt⟩)
  exact Finset.sum_congr rfl fun k _ => congrArg x (funext fun a => Fin.ext (by
    match a with
    | ⟨0, _⟩ => rfl
    | ⟨1, _⟩ => rfl
    | ⟨2, _⟩ => rfl))

end Cert.ReferenceIdeal.RefValue

end
-- ==== Proof.Payload.lean ====
/-
  The kernel body's stored value, read at an index of the block, over the extended reals.

  The body loads the whole [1, 10000, 128] block, sums it along its 10000 rows (one sum per lane), adds to that row
  of 128 lane sums its own rotation by 64 lanes, and stores the resulting row at every row of the output block. So
  the entry at (row r, lane l) is the lane-l sum plus the sum of the lane 64 places away round the 128 lanes — the row
  r does not matter.
-/
import proofs.«132183_j40922448396317_2_alg».proof.Proof.Gen.KernelIdeal.Skeleton
import Idealize.ShloMosaic.Lib.ValueIdx
import Idealize.ShloMosaic.Lib.Pipeline.Value
import Idealize.ShloMosaic.Lib.KernelVsHost
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-- The row of lane sums, as a [1, 1, 128] vector, at lane `l`: the sum of lane `l` over the block's rows. -/
theorem laneSums_apply (x0 : FVec Ideal S1x10000x128 .f32) (h : S1x10000x128.Reduces [1] S1x128)
    (hφ : FKind.Formats .f32) (hacc : (0x00000000#32 : BitVec 32) = FKind.add.neutral .f32 hφ)
    (hc : S1x128.ShapeCasts S1x1x128) (l : Fin 128) :
    shapeCast S1x1x128 (multiReduction (F := Ideal) .add [1] S1x128 x0 0x00000000#32 h hφ hacc) hc
        (ix3 (0 : Fin 1) (0 : Fin 1) l)
      = ∑ q : Fin 10000, x0 (ix3 (0 : Fin 1) q l) := by
  refine (shapeCast_apply _ hc (ix3 (0 : Fin 1) (0 : Fin 1) l) (ix2 (0 : Fin 1) l) ?_).trans ?_
  · rw [Shape.rowMajor_val_two, Shape.rowMajor_val_three]
    show 0 * 128 + l.val = (0 * 1 + 0) * 128 + l.val
    omega
  refine (Ideal.multiReduction_add_single x0 0x00000000#32 h hφ hacc (ix2 (0 : Fin 1) l)).trans ?_
  refine Finset.sum_congr rfl fun q _ => congrArg x0 (funext fun a => Fin.ext ?_)
  match a with
  | ⟨0, _⟩ => rfl
  | ⟨1, _⟩ => rfl
  | ⟨2, _⟩ => rfl

/-- The stored value at (row `r`, lane `l`): lane `l`'s sum plus the sum of the lane 64 places further round. -/
theorem pay_apply (x0 : FVec Ideal S1x10000x128 .f32) (z : Fin 1) (r : Fin 10000) (l : Fin 128) :
    k0_pay1 (F := Ideal) x0 (ix3 z r l)
      = (∑ q : Fin 10000, x0 (ix3 (0 : Fin 1) q l))
        + ∑ q : Fin 10000, x0 (ix3 (0 : Fin 1) q ⟨(l.val + 64) % 128, Nat.mod_lt _ (by decide)⟩) := by
  unfold k0_pay1
  dsimp only
  refine (broadcastTo_apply _ _ (ix3 z r l) (ix3 (0 : Fin 1) (0 : Fin 1) l) (fun a => ?_)).trans ?_
  · match a with
    | ⟨0, _⟩ => rfl
    | ⟨1, _⟩ => rfl
    | ⟨2, _⟩ => rfl
  rw [shapeCast_self, shapeCast_self]
  show _ + _ = _
  refine congrArg₂ (· + ·) (laneSums_apply x0 _ _ _ _ l) ?_
  refine (dynamicRotate_apply (2 : Fin 3) 64#32 _ _ (ix3 (0 : Fin 1) (0 : Fin 1) l)
    (ix3 (0 : Fin 1) (0 : Fin 1) ⟨(l.val + 64) % 128, Nat.mod_lt _ (by decide)⟩) (fun b => ?_)).trans
    (laneSums_apply x0 _ _ _ _ _)
  have := l.isLt
  match b with
  | ⟨0, _⟩ => rfl
  | ⟨1, _⟩ => rfl
  | ⟨2, _⟩ =>
    show (l.val + 64) % 128 = (l.val + 128 - 64 % 128) % 128
    omega

end Cert.KernelIdeal.Body

end
-- ==== Proof.Region.lean ====
/-
  What the kernel program leaves in its result array, over the extended reals.

  The program views the [16, 20000, 64] argument as [16, 10000, 128] (rows paired along the last axis), runs its one
  region over a grid of 16 points, and views the region's [16, 10000, 128] result as [16, 20000, 64] again.
  Point t of the grid reads block t of the paired array — batch t, whole — and writes block t of the result: every
  row of it the row of folded lane sums of that batch. The 16 blocks tile the result, so after the region it is the
  folded lane sums of the paired array, batch by batch; and the paired array is the argument re-viewed. The last view
  then holds the column totals (the packing law).
-/
import proofs.«132183_j40922448396317_2_alg».proof.Proof.Gen.KernelIdeal.Frame
import proofs.«132183_j40922448396317_2_alg».proof.Proof.Payload
import proofs.«132183_j40922448396317_2_alg».proof.Proof.ColumnTotal
import Idealize.ShloMosaic.Lib.StableHlo.Run

set_option maxRecDepth 16384

noncomputable section

namespace Cert.KernelIdeal.Region

open Cert.KernelIdeal Cert.KernelIdeal.Gen Cert.KernelIdeal.Body Cert.ColumnTotal
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

theorem zero_offsets : (![0, 0, 0] : Fin 3 → Nat) = fun _ => 0 := funext fun a => by fin_cases a <;> rfl

/-- Both windows' blocks at point `t` are batch `t`, whole: block index (t, 0, 0). -/
theorem block_index : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

theorem point_lt (t : Fin cfg0.N) : t.val < 16 := by
  have h : t.val < grid0.N := t.isLt
  rw [N_0] at h
  exact h

/-- The region finds the paired array holding the argument re-viewed. -/
theorem paired_eq (c : Dev nD) :
    (V m c main_v0 : S16x10000x128.Idx → EReal)
      = shapeCast S16x10000x128 (m ((c : Thread nD τ).loc main_arg0)) shapeCasts_S16x20000x64_S16x10000x128 := by
  show StableHlo.after hostOps0 (fun b => m (c, b)) (Proc.devRef .tc main_v0) = _
  after_results
  rfl

/-- The input block at point `t`, at (row q, lane l), is the paired array at (t, q, l). -/
theorem iblk_apply (c : Dev nD) (t : Fin cfg0.N) (z : Fin 1) (q : Fin 10000) (l : Fin 128) :
    iblk m c 0 t (ix3 z q l) = (V m c main_v0 : S16x10000x128.Idx → EReal) (ix3 ⟨t.val, point_lt t⟩ q l) := by
  obtain ⟨e0, e1, e2, -⟩ := block_index t
  show V m c main_v0 (((cfg0.win 0).blk t).view.emb (ix3 z q l)) = V m c main_v0 _
  refine congrArg (V m c main_v0) (funext fun a => Fin.ext ?_)
  have := z.isLt
  match a with
  | ⟨0, _⟩ => show win0_0.index t (0 : Fin 3) * 1 + 1 * z.val = t.val; omega
  | ⟨1, _⟩ => show win0_0.index t (1 : Fin 3) * 10000 + 1 * q.val = q.val; omega
  | ⟨2, _⟩ => show win0_0.index t (2 : Fin 3) * 128 + 1 * l.val = l.val; omega

/-- What point `t` writes back is block `t` of the folded lane sums of the paired array. -/
theorem flushed_eq (c : Dev nD) (t : Fin cfg0.N) :
    (dats m 0 c).flushed 1 t
      = ((cfg0.win 1).blk t).view.read (Elt Ideal) (folded (M := EReal) (V m c main_v0)) := by
  show (cfg0.win 1).cut (grid0.coords t) ((dats m 0 c).after 1 t) = _
  rw [after0_1]
  unfold out0_1
  rw [View.canon_unit_zero zero_offsets]
  simp only [View.ld_unit_zero (S := S1x10000x128) zero_offsets]
  obtain ⟨-, -, -, e0, e1, e2⟩ := block_index t
  funext j
  obtain ⟨z, r, l, rfl⟩ : ∃ (z : Fin 1) (r : Fin 10000) (l : Fin 128), j = ix3 z r l := ⟨j 0, j 1, j 2, eq_ix3 j⟩
  show k0_pay1 (iblk m c 0 t) (ix3 z r l)
    = folded (M := EReal) (V m c main_v0) (((cfg0.win 1).blk t).view.emb (ix3 z r l))
  refine (pay_apply (iblk m c 0 t) z r l).trans ?_
  have := z.isLt
  refine Eq.trans ?_ (folded_apply _ _ ⟨t.val, point_lt t⟩ l ?_ ?_).symm
  · exact congrArg₂ (· + ·) (Finset.sum_congr rfl fun q _ => iblk_apply m c t 0 q l)
      (Finset.sum_congr rfl fun q _ => iblk_apply m c t 0 q _)
  · show win0_1.index t (0 : Fin 3) * 1 + 1 * z.val = t.val; omega
  · show win0_1.index t (2 : Fin 3) * 128 + 1 * l.val = l.val; omega

/-- An index of the result is in point `t`'s block iff each coordinate is in the block's range on its axis. -/
theorem mem_blk (t : Fin cfg0.N) (i : S16x10000x128.Idx) :
    i ∈ ((cfg0.win 1).blk t).view.set ↔ ∀ a : Fin 3, win0_1.index t a * S1x10000x128.size a ≤ (i a).val
      ∧ (i a).val < win0_1.index t a * S1x10000x128.size a + S1x10000x128.size a := by
  show i ∈ ((View.whole main_v1).slice (win0_1.rect t)).set ↔ _
  rw [View.set_slice_whole, Rect.mem_set_unit]
  exact Iff.rfl

/-- Every index of the result is in the block of the point its batch names. -/
theorem covered (i : S16x10000x128.Idx) :
    ∃ t : Fin cfg0.N, (cfg0.win 1).flush t = true ∧ i ∈ ((cfg0.win 1).blk t).view.set := by
  have hi0 : (i 0).val < 16 := (i 0).isLt
  have hi1 : (i 1).val < 10000 := (i 1).isLt
  have hi2 : (i 2).val < 128 := (i 2).isLt
  have hN : grid0.N = 16 := N_0
  refine ⟨⟨(i 0).val, by show (i 0).val < grid0.N; omega⟩, flush0_1 _, ?_⟩
  rw [mem_blk]
  obtain ⟨-, -, -, e0, e1, e2⟩ := block_index ⟨(i 0).val, by show (i 0).val < grid0.N; omega⟩
  intro a
  match a with
  | ⟨0, _⟩ =>
    show win0_1.index _ (0 : Fin 3) * 1 ≤ (i 0).val ∧ (i 0).val < win0_1.index _ (0 : Fin 3) * 1 + 1
    rw [e0]; show (i 0).val * 1 ≤ (i 0).val ∧ (i 0).val < (i 0).val * 1 + 1; omega
  | ⟨1, _⟩ =>
    show win0_1.index _ (1 : Fin 3) * 10000 ≤ (i 1).val ∧ (i 1).val < win0_1.index _ (1 : Fin 3) * 10000 + 10000
    rw [e1]; omega
  | ⟨2, _⟩ =>
    show win0_1.index _ (2 : Fin 3) * 128 ≤ (i 2).val ∧ (i 2).val < win0_1.index _ (2 : Fin 3) * 128 + 128
    rw [e2]; omega

/-- After the region its result array is the folded lane sums of the paired array. -/
theorem region_result (c : Dev nD) :
    (dats m 0 c).arrAt 1 cfg0.N = folded (M := EReal) (V m c main_v0) :=
  (dats m 0 c).arrAt_eq_of_cover 1 _ (fun t _ => flushed_eq m c t) covered

/-- The program's result is the region's result re-viewed. -/
theorem result_eq (c : Dev nD) :
    (Pipeline.afterTail₀ cfgs (dats m) 0 (V0 m) [hostOps1] c main_v2 : S16x20000x64.Idx → EReal)
      = shapeCast S16x20000x64 ((dats m 0 c).arrAt 1 cfg0.N) shapeCasts_S16x10000x128_S16x20000x64 := by
  unfold Pipeline.afterTail₀
  show StableHlo.after hostOps1 _ (Proc.devRef .tc main_v2) = _
  after_results
  exact congrArg (fun y : S16x10000x128.Idx → EReal => shapeCast S16x20000x64 y shapeCasts_S16x10000x128_S16x20000x64)
    (Pipeline.withArrays_arr spec0 launch0.win.arr_inj c (V0 m c) (fun w => (dats m 0 c).arrAt w cfg0.N) 1)

/-- So the program's result holds the column totals of its argument. -/
theorem result_totals (c : Dev nD) :
    (Pipeline.afterTail₀ cfgs (dats m) 0 (V0 m) [hostOps1] c main_v2 : S16x20000x64.Idx → EReal)
      = totals (M := EReal) (m ((c : Thread nD τ).loc main_arg0)) := by
  rw [result_eq, region_result, paired_eq]
  exact unpack_folded_pack (M := EReal) _ _ _

/-- The program's run, read: every weakly fair execution ends with the result array at the column totals of the
    argument array, and both arguments as they were. -/
theorem run : θ_run defs (onTc (τ := τ) (main (F := Ideal))) ⟨m, fun _ => 0, ρ⟩ (fun r => ∀ c : Dev nD,
      r.2.mem ((c.tc : Thread nD τ).loc main_v2) = totals (M := EReal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v2 (Pipeline.mem_restRefs_of main_v2 (by decide) (by decide))).trans (result_totals m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Region

end
-- ==== Proof.lean ====
/-
  The kernel and its reference compute the same array over the extended reals: at every (batch, row, column) the sum
  of that column of the batch's 20000 rows.

  The reference sums each column directly. The kernel pairs consecutive rows side by side (a [16, 10000, 128] view of
  the same row-major data), sums the 10000 paired rows lane by lane — lanes 0..63 then hold the even rows' sums and lanes
  64..127 the odd rows' —, adds to the row of lane sums its rotation by 64 lanes, which puts the full column total in
  every lane, writes that row at every paired row, and un-pairs the view. The two results differ only in the grouping and
  order of one finite sum, and addition on the extended reals is commutative and associative with no side condition: the
  finiteness of the inputs is not used.

  The frames of the two kernel programs are the generated ones; the reference's frame is its generated run with the
  result dropped; the idealization rewrote nothing, so there is nothing to preserve.
-/
import proofs.«132183_j40922448396317_2_alg».proof.Defs
import proofs.«132183_j40922448396317_2_alg».proof.Proof.Gen.Kernel
import proofs.«132183_j40922448396317_2_alg».proof.Proof.Gen.Kernel.Skeleton
import proofs.«132183_j40922448396317_2_alg».proof.Proof.Gen.Kernel.Launch
import proofs.«132183_j40922448396317_2_alg».proof.Proof.Gen.Kernel.Points
import proofs.«132183_j40922448396317_2_alg».proof.Proof.Gen.Kernel.Frame
import proofs.«132183_j40922448396317_2_alg».proof.Proof.Gen.KernelIdeal
import proofs.«132183_j40922448396317_2_alg».proof.Proof.Gen.KernelIdeal.Skeleton
import proofs.«132183_j40922448396317_2_alg».proof.Proof.Gen.KernelIdeal.Launch
import proofs.«132183_j40922448396317_2_alg».proof.Proof.Gen.KernelIdeal.Points
import proofs.«132183_j40922448396317_2_alg».proof.Proof.Gen.KernelIdeal.Frame
import proofs.«132183_j40922448396317_2_alg».proof.Proof.Gen.ReferenceIdeal
import proofs.«132183_j40922448396317_2_alg».proof.Proof.Gen.Pre_finite_inputs
import proofs.«132183_j40922448396317_2_alg».proof.Proof.Gen.ReferenceIdeal.Run
import proofs.«132183_j40922448396317_2_alg».proof.Proof.Gen.ReferenceIdeal.Read
import proofs.«132183_j40922448396317_2_alg».proof.Proof.RefTotal
import proofs.«132183_j40922448396317_2_alg».proof.Proof.Region
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the column totals of the argument array they were given, and the arguments agree. -/
theorem algebraic : Cert.algebraic_KernelIdeal_ReferenceIdeal := by
  intro m ρ m' ρ' _ hagree
  refine ⟨_, Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.reference_eq, (hagree c).1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
